-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S256x10000 : Shape := ⟨2, ![256, 10000]⟩
abbrev S256x128 : Shape := ⟨2, ![256, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S256x10000, .f32⟩
  | .local _ .vmem, ⟨1, _⟩ => ⟨S256x10000, .f32⟩
  | .local _ .vmem, ⟨2, _⟩ => ⟨S10000x128, .f32⟩
  | .local _ .vmem, ⟨3, _⟩ => ⟨S128x128, .f32⟩
  | .local _ .vmem, ⟨4, _⟩ => ⟨S256x128, .f32⟩
  | .local _ .vmem, ⟨5, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x10000_S256x10000_0_0 : ∀ a, (![0, 0] : Fin 2 → Nat) a + S256x10000.size a ≤ S256x10000.size a
  h_S256x10000 : 0 < S256x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  dot_S256x10000_S10000x128_S256x128_1_0_0_1_n_n_wf : DotDims.WF S256x10000 S10000x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x10000.size a < S10000x10000.size a
  hwx0_0 : ∀ i : grid0.Coords, EltTy.bits .f32 = 32 ∨ (Rect.unit (s := S10000x10000) (fun a => cc0_transform_0 i a * S256x10000.size a) (fun a => (Pipeline.Clip.of (cc0_transform_0 i a) (S256x10000.size a) (S10000x10000.size a)).extent (S256x10000.size a)) fun a => Pipeline.Clip.inb (Pipeline.Clip.ok_of (hstart0_0 i a))).WholeWords (EltTy.packing .f32)
  hwxs0_0 : ∀ i : grid0.Coords, EltTy.bits .f32 = 32 ∨ (Rect.unit (s := S256x10000) (fun _ => 0) (fun a => (Pipeline.Clip.of (cc0_transform_0 i a) (S256x10000.size a) (S10000x10000.size a)).extent (S256x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x128.size a < S10000x128.size a
  hwx0_3 : ∀ i : grid0.Coords, EltTy.bits .f32 = 32 ∨ (Rect.unit (s := S10000x128) (fun a => cc0_transform_3 i a * S256x128.size a) (fun a => (Pipeline.Clip.of (cc0_transform_3 i a) (S256x128.size a) (S10000x128.size a)).extent (S256x128.size a)) fun a => Pipeline.Clip.inb (Pipeline.Clip.ok_of (hstart0_3 i a))).WholeWords (EltTy.packing .f32)
  hwxs0_3 : ∀ i : grid0.Coords, EltTy.bits .f32 = 32 ∨ (Rect.unit (s := S256x128) (fun _ => 0) (fun a => (Pipeline.Clip.of (cc0_transform_3 i a) (S256x128.size a) (S10000x128.size a)).extent (S256x128.size a)) fun a => (Nat.zero_add _).trans_le (Pipeline.Clip.extent_le (Pipeline.Clip.ok_of (hstart0_3 i a)))).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpecClip (Memref.whole main_arg1) S256x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S256x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelBody.lean ====
import proofs.«103940_g28054726377562_cont_9to1_1452_12_alg».proof.Proof.Gen.Kernel.Frame
import proofs.«103940_g28054726377562_cont_9to1_1452_12_alg».proof.Proof.Gen.Kernel.Skeleton
import Idealize.ShloMosaic.Lib.Pipeline.FrameBody
import Idealize.ShloMosaic.Lib.Tactic

/-!
# The body of the fused kernel, run once on arbitrary staging buffers

One grid point of the kernel reads three staging buffers whole — a block of 256 rows of `P`, all of `X`,
all of `W` —, reads the result's staging buffer (a value nothing uses), and overwrites that buffer whole with
`max((P_blk · X) · W, 0)`. This module proves that triple for any float instance and any whole memrefs: the
three inputs are left as found, and the result's buffer ends at the stored value read back through the one
rectangle that covers it.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four whole-buffer rectangles the body accesses -/

abbrev rectP : Rect S256x10000 := Rect.unit (s := S256x10000) ![0, 0] S256x10000.size inb_S256x10000_S256x10000_0_0
abbrev rectX : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectO : Rect S256x128 := Rect.unit (s := S256x128) ![0, 0] S256x128.size inb_S256x128_S256x128_0_0

/-- What the result's staging buffer holds after the body, from what the three input buffers hold: the one
    store, through the rectangle that is the whole buffer, of the payload of the three whole loads. -/
def stored (x0 : Vec F S256x10000 .f32) (x1 : Vec F S10000x128 .f32) (x2 : Vec F S128x128 .f32) : Vec F S256x128 .f32 :=
  View.canon [⟨rectO, k0_pay1 (View.ld x0 rectP) (View.ld x1 rectX) (View.ld x2 rectW)⟩]

/-- The one store's rectangle is the whole buffer, so every index is covered by it. -/
theorem stored_cover (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

set_option maxHeartbeats 1000000 in
/-- The body on whole staging memrefs — the inputs' at contents `x0`, `x1`, `x2`, the result's at anything —
    runs to the continuation with the inputs' as they were and the result's at `stored x0 x1 x2`. -/
theorem sound_kernel (c : Dev nD) (E : Set ℕ) (i : grid0.Coords)
    (arg1 : Memref sig .tc .vmem S256x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S256x128 .f32) (harg4 : arg4.IsWhole)
    (x0 : Vec F S256x10000 .f32) (x1 : Vec F S10000x128 .f32) (x2 : Vec F S128x128 .f32) (K : PUnit → sProp 𝕄) :
    iprop(owns (c : Thread nD τ) arg1 fullShare x0 ∗ owns (c : Thread nD τ) arg2 fullShare x1
          ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (stored x0 x1 x2)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

end Cert.Kernel.Body

end
-- ==== Proof.KernelFrame.lean ====
import proofs.«103940_g28054726377562_cont_9to1_1452_12_alg».proof.Proof.KernelBody

/-!
# The kernel runs to the end and leaves its arguments alone

The grid has 40 points; point `t` stages rows `256·t ‥ 256·t+255` of `P` (at the last point only 16 of them lie
inside the array, and the rest of the staging buffer holds words nothing names), all of `X` and all of `W`, runs
the body, and writes the part of the result's block inside the array back. For the frame nothing needs to be said of
what the result's staging buffer holds: that window is forgotten, the three inputs' buffers are described exactly
(`P`'s on the rows inside the array only), and the run's post then gives each argument array at its entry contents.
-/

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose staging contents the frame does not describe: the result's. -/
abbrev forgotten : Fin cfg0.W → Bool := fun w => match w with
  | ⟨0, _⟩ => false
  | ⟨1, _⟩ => false
  | ⟨2, _⟩ => false
  | ⟨3, _⟩ => true

/-- `P`'s block at point `t` filled out to the whole staging buffer: the rows inside the array, and the zero word on
    the rows past the array's end (which only the last point has, and which nothing reads back). -/
def pFilled (c : Dev nD) (t : Fin cfg0.N) : (cfg0.win 0).block.Idx → Elt F (cfg0.win 0).elt :=
  (cfg0.win 0).fill (cfg0.grid.coords t) (fun _ => Scalar.ofBits .f32 0#32) (iblk m c 0 t)

/-- The proof data: the arrays as the region finds them; after the body `P`'s buffer at its block filled out, `X`'s and
    `W`'s at their (whole) blocks, the result's at a value nothing reads (the window is forgotten). -/
def dats (_ : Fin 1) (c : Dev nD) : Dat τ (Elt F) Unit ℕ (UR sig nD τ) ℕ cfg0 c where
  A w := V m c (Pipeline.arrRef spec0 w)
  after w t := match w with
    | ⟨0, _⟩ => pFilled m c t
    | ⟨1, _⟩ => iblk m c 1 t
    | ⟨2, _⟩ => iblk m c 2 t
    | ⟨3, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = pFilled m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- `P`'s window is fetched at every point: the body finds the block on the rows inside the array, and on the rest
    whatever the buffer's overwrite left (`d`). -/
theorem before_0 (c : Dev nD) (t : Fin cfg0.N) (d) :
    (dats m 0 c).before 0 t d = (cfg0.win 0).fill (cfg0.grid.coords t) d (iblk m c 0 t) := by
  rw [(dats m 0 c).before_fetched 0 t (fetch0_0 t) d]
  unfold Dat.fetched Dat.blockOf iblk; rw [A_eq]
/-- `X` and `W` are fetched once and never move: the body finds them whole at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`: the three inputs' current buffers at what the pipeline left there, the
    result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it hands back: `P`'s buffer described on the rows inside the array, `X`'s and `W`'s exactly, the result's at
    anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩, ⟨%X3, H3⟩⟩
  iapply (sound_kernel c Set.univ _ _ _ _ _ _ _ _ _ ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    unfold pFilled
    rw [(cfg0.win 0).cut_fill]
    iexact H0
  isplitl [H1]; · iexact H1
  isplitl [H2]; · iexact H2
  iexists _; iexact H3

/-- The library's body obligation with the result's window forgotten, at every point. -/
theorem body_obligation (c : Dev nD) :
    BodyObligationLoose (dats (F := F) m 0 c) (defs₀ (F := F)) Variants.none () Set.univ forgotten := fun t => by
  rw [bigSep_W0, bigSep_W0]
  exact sound_body m c t

set_option backward.isDefEq.respectTransparency.types false in
/-- Every weakly fair execution of @main terminates, nothing faulting, and each array of the pipeline ends at some
    contents the relational data allows — for an input array, its entry contents. -/
theorem run_main : θ_run defs (onTc (τ := τ) (main (F := F))) (s₀ m ρ)
    (Pipeline.RDat.FramePost cfg0 (fun c => (dats m 0 c).toRForget forgotten) (V m)) :=
  Pipeline.RDat.θ_run_frame cfgs (0 : Fin 1) launch0 defs₀ Variants.none (fun c => (dats m 0 c).toRForget forgotten) m ρ main
    (hbody := fun c => (body_obligation m c).toRForget) (hshare := fun c => (dats m 0 c).share_full fun _ => rfl)
    (howed := fun _ _ => rfl) (V := V m) (hmain := hmain m Variants.none) (hA := fun c w => A_eq m c w) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Eq.mp (congrFun (Pipeline.RDat.ArrAt_in ((dats m 0 c).toRForget forgotten) 1 rfl cfg0.N) _) ((h c).1 1)).trans ((A_eq m c 1).trans (V_main_arg0 m c)),
     (Eq.mp (congrFun (Pipeline.RDat.ArrAt_in ((dats m 0 c).toRForget forgotten) 0 rfl cfg0.N) _) ((h c).1 0)).trans ((A_eq m c 0).trans (V_main_arg1 m c)),
     (Eq.mp (congrFun (Pipeline.RDat.ArrAt_in ((dats m 0 c).toRForget forgotten) 2 rfl cfg0.N) _) ((h c).1 2)).trans ((A_eq m c 2).trans (V_main_arg2 m c))⟩)
    (run_main m ρ)

end Cert.Kernel.FrameRun

end
-- ==== Proof.KernelIdealBody.lean ====
import proofs.«103940_g28054726377562_cont_9to1_1452_12_alg».proof.Proof.Gen.KernelIdeal.Frame
import proofs.«103940_g28054726377562_cont_9to1_1452_12_alg».proof.Proof.Gen.KernelIdeal.Skeleton
import Idealize.ShloMosaic.Lib.Pipeline.FrameBody
import Idealize.ShloMosaic.Lib.Tactic

/-!
# The body of the fused kernel, run once on arbitrary staging buffers

One grid point of the kernel reads three staging buffers whole — a block of 256 rows of `P`, all of `X`,
all of `W` —, reads the result's staging buffer (a value nothing uses), and overwrites that buffer whole with
`max((P_blk · X) · W, 0)`. This module proves that triple for any float instance and any whole memrefs: the
three inputs are left as found, and the result's buffer ends at the stored value read back through the one
rectangle that covers it.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four whole-buffer rectangles the body accesses -/

abbrev rectP : Rect S256x10000 := Rect.unit (s := S256x10000) ![0, 0] S256x10000.size inb_S256x10000_S256x10000_0_0
abbrev rectX : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectO : Rect S256x128 := Rect.unit (s := S256x128) ![0, 0] S256x128.size inb_S256x128_S256x128_0_0

/-- What the result's staging buffer holds after the body, from what the three input buffers hold: the one
    store, through the rectangle that is the whole buffer, of the payload of the three whole loads. -/
def stored (x0 : Vec F S256x10000 .f32) (x1 : Vec F S10000x128 .f32) (x2 : Vec F S128x128 .f32) : Vec F S256x128 .f32 :=
  View.canon [⟨rectO, k0_pay1 (View.ld x0 rectP) (View.ld x1 rectX) (View.ld x2 rectW)⟩]

/-- The one store's rectangle is the whole buffer, so every index is covered by it. -/
theorem stored_cover (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

set_option maxHeartbeats 1000000 in
/-- The body on whole staging memrefs — the inputs' at contents `x0`, `x1`, `x2`, the result's at anything —
    runs to the continuation with the inputs' as they were and the result's at `stored x0 x1 x2`. -/
theorem sound_kernel (c : Dev nD) (E : Set ℕ) (i : grid0.Coords)
    (arg1 : Memref sig .tc .vmem S256x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S256x128 .f32) (harg4 : arg4.IsWhole)
    (x0 : Vec F S256x10000 .f32) (x1 : Vec F S10000x128 .f32) (x2 : Vec F S128x128 .f32) (K : PUnit → sProp 𝕄) :
    iprop(owns (c : Thread nD τ) arg1 fullShare x0 ∗ owns (c : Thread nD τ) arg2 fullShare x1
          ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (stored x0 x1 x2)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

end Cert.KernelIdeal.Body

end
-- ==== Proof.Spec.lean ====
import Idealize.ShloMosaic.PureOps.Ideal
import Idealize.ShloMosaic.PureOps.Ideal.Laws
import Idealize.ShloMosaic.Lib.ValueIdx

/-!
# The specification: `max((P · X) · W, 0)`, entry by entry, on the extended reals

`P` is 10000 × 10000, `X` is 10000 × 128, `W` is 128 × 128. Entry `(r, o)` of the result is the
maximum of `0` and `∑ₖ (∑_q P[r, q] · X[q, k]) · W[k, o]`: a row of the result reads ONE row of `P`
(and all of `X` and `W`), which is why a program may compute it 256 rows at a time, and why rows of a
staging buffer past the array's end cannot reach the rows inside it.
-/

noncomputable section

namespace Cert.Spec

open Idealize.ShloMosaic Idealize.ShloMosaic.ValueIdx

abbrev SX : Shape := ⟨2, ![10000, 128]⟩
abbrev SP : Shape := ⟨2, ![10000, 10000]⟩
abbrev SW : Shape := ⟨2, ![128, 128]⟩

/-- One entry of the result from ONE row of `P`: `max(∑ₖ (∑_q prow q · X[q, k]) · W[k, o], 0)`. -/
def reluRow (prow : Fin 10000 → EReal) (x : SX.Idx → EReal) (w : SW.Idx → EReal) (o : Fin 128) : EReal :=
  max (∑ k : Fin 128, (∑ q : Fin 10000, prow q * x (ix2 q k)) * w (ix2 k o)) (Ideal.ofBits .f32 0x00000000#32)

/-- The whole result: entry `i` is `reluRow` of row `i 0` of `P` at column `i 1`. -/
def reluPXW (x : SX.Idx → EReal) (p : SP.Idx → EReal) (w : SW.Idx → EReal) : SX.Idx → EReal :=
  fun i => reluRow (fun q => p (ix2 (i 0) q)) x w (i 1)

/-- `reluRow` reads the row only through its entries. -/
theorem reluRow_congr {prow prow' : Fin 10000 → EReal} (h : ∀ q, prow q = prow' q) (x : SX.Idx → EReal) (w : SW.Idx → EReal)
    (o : Fin 128) : reluRow prow x w o = reluRow prow' x w o := by
  rw [show prow = prow' from funext h]

end Cert.Spec

end
-- ==== Proof.KernelIdealPayload.lean ====
import proofs.«103940_g28054726377562_cont_9to1_1452_12_alg».proof.Proof.Gen.KernelIdeal.Skeleton
import proofs.«103940_g28054726377562_cont_9to1_1452_12_alg».proof.Proof.Spec
import Idealize.ShloMosaic.Lib.ValueIdx
import Idealize.ShloMosaic.PureOps.Ideal.Laws

/-!
# The body's arithmetic, entry by entry, on the extended reals

The value the body stores is `max((A · B) · C, 0)` of the three buffers it loaded (the two changes of float format
are the identity on the extended reals, and a product into a zero accumulator is the bare sum). Read at row `r` and
column `o` it is the specification's one-row term of row `r` of the first buffer: no other row of that buffer enters.
-/

set_option maxRecDepth 16384

noncomputable section

namespace Cert.KernelIdeal.Payload

open Cert.KernelIdeal Cert.KernelIdeal.Gen Idealize.ShloMosaic Idealize.ShloMosaic.ValueIdx

local notation "dPX" => dot_S256x10000_S10000x128_S256x128_1_0_0_1_n_n
local notation "dSW" => dot_S256x128_S128x128_S256x128_1_0_0_1_n_n

theorem lhsPX_0 (i : S256x128.Idx) (q : (dPX).contr.Idx) : ((dPX).lhsIdx i q 0).val = (i 0).val := by
  unfold DotDims.lhsIdx
  rw [dif_neg (show ¬(0 : Fin S256x10000.rank) ∈ (dPX).lhsBatch by decide), dif_pos (show (0 : Fin S256x10000.rank) ∈ (dPX).lhsNonContracting by decide)]
  rfl
theorem rhsPX_1 (i : S256x128.Idx) (q : (dPX).contr.Idx) : ((dPX).rhsIdx i q 1).val = (i 1).val := by
  unfold DotDims.rhsIdx
  rw [dif_neg (show ¬(1 : Fin S10000x128.rank) ∈ (dPX).rhsBatch by decide), dif_pos (show (1 : Fin S10000x128.rank) ∈ (dPX).rhsNonContracting by decide)]
  rfl
theorem lhsSW_0 (i : S256x128.Idx) (q : (dSW).contr.Idx) : ((dSW).lhsIdx i q 0).val = (i 0).val := by
  unfold DotDims.lhsIdx
  rw [dif_neg (show ¬(0 : Fin S256x128.rank) ∈ (dSW).lhsBatch by decide), dif_pos (show (0 : Fin S256x128.rank) ∈ (dSW).lhsNonContracting by decide)]
  rfl
theorem rhsSW_1 (i : S256x128.Idx) (q : (dSW).contr.Idx) : ((dSW).rhsIdx i q 1).val = (i 1).val := by
  unfold DotDims.rhsIdx
  rw [dif_neg (show ¬(1 : Fin S128x128.rank) ∈ (dSW).rhsBatch by decide), dif_pos (show (1 : Fin S128x128.rank) ∈ (dSW).rhsNonContracting by decide)]
  rfl

/-- The first product into a zero accumulator, at row `r` and column `k`: the sum over the 10000 contracted places. -/
theorem prodPX_apply (a : FVec Ideal S256x10000 .bf16) (b : FVec Ideal S10000x128 .bf16) (r : Fin 256) (k : Fin 128) :
    matmul dPX none a b (constant S256x128 .f32 0x00000000#32) (ix2 r k) = ∑ q : Fin 10000, a (ix2 r q) * b (ix2 q k) := by
  refine (Ideal.matmul_constant_zero_apply dPX none a b (ix2 r k)).trans ?_
  rw [← Equiv.sum_comp (contrEquiv1 dPX 10000 rfl rfl).symm]
  refine Finset.sum_congr rfl fun q _ => ?_
  have hq := contrEquiv1_symm_val dPX 10000 rfl rfl q
  have el : (dPX).lhsIdx (ix2 r k) ((contrEquiv1 dPX 10000 rfl rfl).symm q) = ix2 r q := funext fun a => Fin.ext (by
    match a with
    | ⟨0, _⟩ => exact lhsPX_0 _ _
    | ⟨1, _⟩ => exact ((dPX).lhsIdx_val_of_single rfl _ _).trans hq)
  have er : (dPX).rhsIdx (ix2 r k) ((contrEquiv1 dPX 10000 rfl rfl).symm q) = ix2 q k := funext fun a => Fin.ext (by
    match a with
    | ⟨0, _⟩ => exact ((dPX).rhsIdx_val_of_single rfl _ _).trans hq
    | ⟨1, _⟩ => exact rhsPX_1 _ _)
  rw [el, er]

/-- The second product into a zero accumulator, at row `r` and column `o`: the sum over the 128 contracted places. -/
theorem prodSW_apply (s : FVec Ideal S256x128 .f32) (w : FVec Ideal S128x128 .f32) (r : Fin 256) (o : Fin 128) :
    matmul dSW none s w (constant S256x128 .f32 0x00000000#32) (ix2 r o) = ∑ k : Fin 128, s (ix2 r k) * w (ix2 k o) := by
  refine (Ideal.matmul_constant_zero_apply dSW none s w (ix2 r o)).trans ?_
  rw [← Equiv.sum_comp (contrEquiv1 dSW 128 rfl rfl).symm]
  refine Finset.sum_congr rfl fun k _ => ?_
  have hk := contrEquiv1_symm_val dSW 128 rfl rfl k
  have el : (dSW).lhsIdx (ix2 r o) ((contrEquiv1 dSW 128 rfl rfl).symm k) = ix2 r k := funext fun a => Fin.ext (by
    match a with
    | ⟨0, _⟩ => exact lhsSW_0 _ _
    | ⟨1, _⟩ => exact ((dSW).lhsIdx_val_of_single rfl _ _).trans hk)
  have er : (dSW).rhsIdx (ix2 r o) ((contrEquiv1 dSW 128 rfl rfl).symm k) = ix2 k o := funext fun a => Fin.ext (by
    match a with
    | ⟨0, _⟩ => exact ((dSW).rhsIdx_val_of_single rfl _ _).trans hk
    | ⟨1, _⟩ => exact rhsSW_1 _ _)
  rw [el, er]

/-- The stored value at row `r`, column `o`: the specification's one-row term of row `r` of the first buffer. -/
theorem pay_apply (v0 : Vec Ideal S256x10000 .f32) (v2 : Vec Ideal S10000x128 .f32) (v5 : Vec Ideal S128x128 .f32)
    (r : Fin 256) (o : Fin 128) :
    k0_pay1 (F := Ideal) v0 v2 v5 (ix2 r o) = Cert.Spec.reluRow (fun q => v0 (ix2 r q)) v2 v5 o := by
  unfold k0_pay1 Cert.Spec.reluRow
  refine (maximumf_apply _ _ _).trans ?_
  refine congrArg₂ max ?_ rfl
  refine (prodSW_apply _ _ r o).trans ?_
  refine Finset.sum_congr rfl fun k _ => ?_
  refine congrArg₂ (· * ·) ?_ rfl
  exact prodPX_apply _ _ r k

end Cert.KernelIdeal.Payload

end
-- ==== Proof.KernelIdealRun.lean ====
import proofs.«103940_g28054726377562_cont_9to1_1452_12_alg».proof.Proof.KernelIdealBody
import proofs.«103940_g28054726377562_cont_9to1_1452_12_alg».proof.Proof.KernelIdealPayload
import Idealize.ShloMosaic.Lib.Pipeline.Value

/-!
# The idealized kernel's run, with the result array named

On the extended reals the body's stored value at row `r` depends on row `r` of `P`'s staging buffer only, so the rows
of the result's staging buffer that lie inside the array are the same whatever the rows of `P`'s buffer past the
array's end held. That lets the proof data name what every point leaves (with `P`'s buffer filled out by zeros), the
body obligation be proved for the buffer filled out by anything, and the write-backs — each the rows of its block
inside the array — be pieced together: point `t` writes rows `256·t ‥` of `max((P · X) · W, 0)`, the forty blocks
cover the ten thousand rows, and the result array ends holding the specification of the three argument arrays.
-/

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The stored value, entry by entry -/

theorem hz : (![0, 0] : Fin 2 → Nat) = fun _ => 0 := funext fun a => by fin_cases a <;> rfl

/-- What the body leaves in the result's buffer, at row `r` and column `o`: the specification's one-row term of
    row `r` of what `P`'s buffer held. -/
theorem stored_apply (x0 : Vec Ideal S256x10000 .f32) (x1 : Vec Ideal S10000x128 .f32) (x2 : Vec Ideal S128x128 .f32)
    (r : Fin 256) (o : Fin 128) :
    stored (F := Ideal) x0 x1 x2 (ix2 r o) = Cert.Spec.reluRow (fun q => x0 (ix2 r q)) x1 x2 o := by
  unfold stored
  rw [View.canon_unit_zero hz]
  simp only [View.ld_unit_zero (S := S256x10000) hz, View.ld_unit_zero (S := S10000x128) hz, View.ld_unit_zero (S := S128x128) hz]
  exact pay_apply _ _ _ r o

/-! ## The windows' index maps and cuts, decided over the forty points -/

/-- `P`'s and the result's windows move together down the rows and span every column; `X`'s and `W`'s never move;
    a block's rows inside the array are all 256, except that the last block ends with the array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_0.xsize (grid0.coords t) (0 : Fin 2) = win0_3.xsize (grid0.coords t) (0 : Fin 2)
    ∧ win0_0.xsize (grid0.coords t) (1 : Fin 2) = 10000
    ∧ win0_3.xsize (grid0.coords t) (1 : Fin 2) = 128
    ∧ (256 * t.val + win0_3.xsize (grid0.coords t) (0 : Fin 2) = 10000 ∨ win0_3.xsize (grid0.coords t) (0 : Fin 2) = 256)
    ∧ 256 * t.val + win0_3.xsize (grid0.coords t) (0 : Fin 2) ≤ 10000 :=
  (by decide +kernel : ∀ t : Fin grid0.N, _)

/-! ## The proof data -/

/-- `P`'s block at point `t` filled out to the whole staging buffer: the rows inside the array, and the zero word on
    the rows past the array's end (only the last point has any). -/
def pFilled (c : Dev nD) (t : Fin cfg0.N) : (cfg0.win 0).block.Idx → Elt Ideal (cfg0.win 0).elt :=
  (cfg0.win 0).fill (cfg0.grid.coords t) (fun _ => Scalar.ofBits (F := Ideal) .f32 0#32) (iblk m c 0 t)

/-- The proof data: the arrays as the region finds them; after the body `P`'s buffer at its block filled out, `X`'s and
    `W`'s at their (whole) blocks, the result's at the stored value of those three. -/
def dats (_ : Fin 1) (c : Dev nD) : Dat τ (Elt Ideal) Unit ℕ (UR sig nD τ) ℕ cfg0 c where
  A w := V m c (Pipeline.arrRef spec0 w)
  after w t := match w with
    | ⟨0, _⟩ => pFilled m c t
    | ⟨1, _⟩ => iblk m c 1 t
    | ⟨2, _⟩ => iblk m c 2 t
    | ⟨3, _⟩ => stored (pFilled m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = pFilled m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (pFilled m c t) (iblk m c 1 t) (iblk m c 2 t) := by dsimp only [dats]

/-- `P`'s window is fetched at every point: the body finds the block on the rows inside the array, and on the rest
    whatever the buffer's overwrite left (`d`). -/
theorem before_0 (c : Dev nD) (t : Fin cfg0.N) (d) :
    (dats m 0 c).before 0 t d = (cfg0.win 0).fill (cfg0.grid.coords t) d (iblk m c 0 t) := by
  rw [(dats m 0 c).before_fetched 0 t (fetch0_0 t) d]
  unfold Dat.fetched Dat.blockOf iblk; rw [A_eq]
/-- `X` and `W` are fetched once and never move: the body finds them whole at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The result's window is written back at every point: the body finds its buffer at anything. -/
theorem before_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## Rows inside the array do not see the rows past its end -/

/-- A place of `P`'s staging buffer in a row the result's write-back moves is one the fetch filled. -/
theorem moved_row (t : Fin cfg0.N) (r : Fin 256) (q : Fin 10000) (hr : r.val < win0_3.xsize (grid0.coords t) (0 : Fin 2)) :
    (cfg0.win 0).moved (cfg0.grid.coords t) (ix2 r q) = true := by
  rw [Window.moved_iff]
  obtain ⟨-, -, -, -, -, -, -, -, e8, e9, -⟩ := idx_facts t
  intro a
  match a with
  | ⟨0, _⟩ => show r.val < win0_0.xsize (grid0.coords t) (0 : Fin 2); omega
  | ⟨1, _⟩ => show q.val < win0_0.xsize (grid0.coords t) (1 : Fin 2); have := q.isLt; omega

/-- Two fillings-out of one block agree on such a row. -/
theorem fill_row (t : Fin cfg0.N) (d d' : (cfg0.win 0).block.Idx → Elt Ideal (cfg0.win 0).elt) (g) (r : Fin 256) (q : Fin 10000)
    (hr : r.val < win0_3.xsize (grid0.coords t) (0 : Fin 2)) :
    (cfg0.win 0).fill (cfg0.grid.coords t) d g (ix2 r q) = (cfg0.win 0).fill (cfg0.grid.coords t) d' g (ix2 r q) := by
  have hm := moved_row t r q hr
  unfold Window.fill; rw [dif_pos hm, dif_pos hm]

/-- A place of the result's block that the write-back moves, by coordinates. -/
theorem xinj_eq (t : Fin cfg0.N) (j : ((cfg0.win 3).xblock (cfg0.grid.coords t)).Idx) :
    ((cfg0.win 3).xinj (cfg0.grid.coords t) j : S256x128.Idx)
      = ix2 (⟨(j 0).val, Nat.lt_of_lt_of_le (j 0).isLt ((cfg0.win 3).xsize_le (cfg0.grid.coords t) 0)⟩ : Fin 256)
          (⟨(j 1).val, Nat.lt_of_lt_of_le (j 1).isLt ((cfg0.win 3).xsize_le (cfg0.grid.coords t) 1)⟩ : Fin 128) :=
  funext fun a => Fin.ext (by match a with | ⟨0, _⟩ => rfl | ⟨1, _⟩ => rfl)

/-- So the rows of the stored value that the write-back moves depend on those rows of `P`'s buffer only. -/
theorem cut_stored_congr (t : Fin cfg0.N) (a b : Vec Ideal S256x10000 .f32) (x1 : Vec Ideal S10000x128 .f32) (x2 : Vec Ideal S128x128 .f32)
    (h : ∀ (r : Fin 256) (q : Fin 10000), r.val < win0_3.xsize (grid0.coords t) (0 : Fin 2) → a (ix2 r q) = b (ix2 r q)) :
    (cfg0.win 3).cut (cfg0.grid.coords t) (stored a x1 x2) = (cfg0.win 3).cut (cfg0.grid.coords t) (stored b x1 x2) := by
  funext j
  show stored a x1 x2 ((cfg0.win 3).xinj (cfg0.grid.coords t) j) = stored b x1 x2 ((cfg0.win 3).xinj (cfg0.grid.coords t) j)
  rw [xinj_eq t j, stored_apply, stored_apply]
  exact Cert.Spec.reluRow_congr (fun q => h _ q (j 0).isLt) _ _ _

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back: `P`'s and the result's buffers described on the rows inside the array, `X`'s and `W`'s exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    unfold pFilled
    rw [(cfg0.win 0).cut_fill]
    iexact H0
  isplitl [H1]; · iexact H1
  isplitl [H2]; · iexact H2
  iexists (stored ((cfg0.win 0).fill (cfg0.grid.coords t) d0 (iblk m c 0 t)) (iblk m c 1 t) (iblk m c 2 t))
  unfold pFilled
  rw [(cfg0.win 3).fill_congr_cut (cfg0.grid.coords t) (cut_stored_congr t _ _ _ _ (fun r q hr => fill_row t d0 _ _ r q hr))]
  iexact H3

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, nothing faulting, with every array of the pipeline at what the
    library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end and its three argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## What each point writes back, and the result array -/

/-- `X`'s one block is all of `X`, -/
theorem xblk_eq (c : Dev nD) (t : Fin cfg0.N) : (iblk m c 1 t : S10000x128.Idx → Elt Ideal .f32) = V m c main_arg0 := by
  obtain ⟨-, -, e2, e3, -⟩ := idx_facts t
  funext x
  show V m c main_arg0 (((cfg0.win 1).blk t).view.emb x) = V m c main_arg0 x
  refine congrArg _ (funext fun a => Fin.ext ?_)
  match a with
  | ⟨0, _⟩ => show win0_1.index t (0 : Fin 2) * 10000 + 1 * (x 0).val = (x 0).val; omega
  | ⟨1, _⟩ => show win0_1.index t (1 : Fin 2) * 128 + 1 * (x 1).val = (x 1).val; omega
/-- and `W`'s all of `W`. -/
theorem wblk_eq (c : Dev nD) (t : Fin cfg0.N) : (iblk m c 2 t : S128x128.Idx → Elt Ideal .f32) = V m c main_arg2 := by
  obtain ⟨-, -, -, -, e4, e5, -⟩ := idx_facts t
  funext x
  show V m c main_arg2 (((cfg0.win 2).blk t).view.emb x) = V m c main_arg2 x
  refine congrArg _ (funext fun a => Fin.ext ?_)
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- Row `r` of `P`'s filled-out block at point `t`, inside the array, is row `256·t + r` of `P`. -/
theorem pFilled_row (c : Dev nD) (t : Fin cfg0.N) (r : Fin 256) (q : Fin 10000) (hr : r.val < win0_3.xsize (grid0.coords t) (0 : Fin 2))
    (i : S10000x10000.Idx) (h0 : (i 0).val = 256 * t.val + r.val) (h1 : (i 1).val = q.val) :
    pFilled m c t (ix2 r q) = V m c main_arg1 i := by
  have hm := moved_row t r q hr
  obtain ⟨e0, e1, -⟩ := idx_facts t
  unfold pFilled Window.fill; rw [dif_pos hm]
  show V m c main_arg1 (((cfg0.win 0).blk t).view.emb _) = V m c main_arg1 i
  refine congrArg _ (funext fun a => Fin.ext ?_)
  match a with
  | ⟨0, _⟩ => show win0_0.index t (0 : Fin 2) * 256 + 1 * r.val = (i 0).val; omega
  | ⟨1, _⟩ => show win0_0.index t (1 : Fin 2) * 10000 + 1 * q.val = (i 1).val; omega

/-- WHAT POINT `t` WRITES BACK is block `t` — its rows inside the array — of the specification of the three arrays. -/
theorem flushed_eq (c : Dev nD) (t : Fin cfg0.N) :
    (dats m 0 c).flushed 3 t
      = ((cfg0.win 3).blk t).view.read (Elt Ideal) (Cert.Spec.reluPXW (V m c main_arg0) (V m c main_arg1) (V m c main_arg2)) := by
  show (cfg0.win 3).cut (grid0.coords t) ((dats m 0 c).after 3 t) = _
  rw [after_3]
  funext j
  show stored (pFilled m c t) (iblk m c 1 t) (iblk m c 2 t) ((cfg0.win 3).xinj (cfg0.grid.coords t) j)
    = Cert.Spec.reluPXW (V m c main_arg0) (V m c main_arg1) (V m c main_arg2) (((cfg0.win 3).blk t).view.emb j)
  rw [xinj_eq t j, stored_apply, xblk_eq, wblk_eq]
  unfold Cert.Spec.reluPXW
  obtain ⟨-, -, -, -, -, -, e6, e7, -⟩ := idx_facts t
  have ho : (⟨(j 1).val, Nat.lt_of_lt_of_le (j 1).isLt ((cfg0.win 3).xsize_le (cfg0.grid.coords t) 1)⟩ : Fin 128) = (((cfg0.win 3).blk t).view.emb j) 1 :=
    Fin.ext (by show (j 1).val = win0_3.index t (1 : Fin 2) * 128 + 1 * (j 1).val; omega)
  rw [ho]
  refine Cert.Spec.reluRow_congr (fun q => pFilled_row m c t _ q (j 0).isLt _ ?_ rfl) _ _ _
  show win0_3.index t (0 : Fin 2) * 256 + 1 * (j 0).val = 256 * t.val + (j 0).val
  omega

/-- An index of the result array is in point `t`'s block iff each coordinate is in the block's range inside the array. -/
theorem mem_blk (t : Fin cfg0.N) (i : S10000x128.Idx) :
    i ∈ ((cfg0.win 3).blk t).view.set ↔ ∀ a : Fin 2, win0_3.index t a * S256x128.size a ≤ (i a).val
      ∧ (i a).val < win0_3.index t a * S256x128.size a + win0_3.xsize (grid0.coords t) a := by
  show i ∈ ((View.whole main_v0).slice (win0_3.rect t)).set ↔ _
  rw [View.set_slice_whole, Rect.mem_set_unit]
  exact Iff.rfl

/-- Row `i 0` lies in the block of point `(i 0) / 256`: the forty blocks cover the array. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 256 := ⟨⟨(i 0).val / 256, by rw [show cfg0.N = 40 from N_0]; omega⟩, rfl⟩
  obtain ⟨-, -, -, -, -, -, e6, e7, -, -, e10, e11, e12⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + win0_3.xsize (grid0.coords t) (0 : Fin 2)
    omega
  | ⟨1, _⟩ =>
    show win0_3.index t (1 : Fin 2) * 128 ≤ (i 1).val ∧ (i 1).val < win0_3.index t (1 : Fin 2) * 128 + win0_3.xsize (grid0.coords t) (1 : Fin 2)
    omega

/-- THE RESULT ARRAY after the run: the specification of the three argument arrays as the region found them. -/
theorem final (c : Dev nD) :
    (dats m 0 c).arrAt 3 cfg0.N = Cert.Spec.reluPXW (V m c main_arg0) (V m c main_arg1) (V m c main_arg2) :=
  (dats m 0 c).arrAt_eq_of_cover 3 _ (fun t _ => flushed_eq m c t) cover

/-- The run, read: the result array ends at the specification of the arguments, and the arguments end unchanged. -/
theorem run : θ_run defs (onTc (τ := τ) (main (F := Ideal))) ⟨m, fun _ => 0, ρ⟩ fun r => ∀ c : Dev nD,
      r.2.mem ((c.tc : Thread nD τ).loc main_v0)
        = Cert.Spec.reluPXW (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 2).trans (((dats m 0 c).arrAt_in 2 rfl _).trans ((A_eq m c 2).trans (V_main_arg2 m c)))⟩)
    (run_main m ρ)

end Cert.KernelIdeal.Run

end
-- ==== Proof.RefValue.lean ====
import proofs.«103940_g28054726377562_cont_9to1_1452_12_alg».proof.Defs
import proofs.«103940_g28054726377562_cont_9to1_1452_12_alg».proof.Proof.Gen.ReferenceIdeal.Read
import proofs.«103940_g28054726377562_cont_9to1_1452_12_alg».proof.Proof.Spec
import Idealize.ShloMosaic.Lib.ValueIdx
import Idealize.ShloMosaic.PureOps.Ideal.Laws

/-!
# The reference computes the specification

The reference is two host matrix products and a maximum with the zero splat. Read at an index, the outer product
is a sum over `k < 128` of the inner product's entry `(i 0, k)` times `W[k, i 1]`, and that entry is a sum over
`q < 10000` of `P[i 0, q] · X[q, k]`: the specification's term, once the operations' index functions are written
by coordinates.
-/

noncomputable section

namespace Cert.RefValue

open Cert.ReferenceIdeal Cert.ReferenceIdeal.Read Idealize.ShloMosaic Idealize.ShloMosaic.ValueIdx

theorem lidx0 (i : S10000x128.Idx) (k : Fin 128) (q : Fin 10000) : lidx_main_v0 (lidx_main_v1 i k) q = ix2 (i 0) q :=
  funext fun a => Fin.ext (by match a with | ⟨0, _⟩ => rfl | ⟨1, _⟩ => rfl)
theorem ridx0 (i : S10000x128.Idx) (k : Fin 128) (q : Fin 10000) : ridx_main_v0 (lidx_main_v1 i k) q = ix2 q k :=
  funext fun a => Fin.ext (by match a with | ⟨0, _⟩ => rfl | ⟨1, _⟩ => rfl)
theorem ridx1 (i : S10000x128.Idx) (k : Fin 128) : ridx_main_v1 i k = ix2 k (i 1) :=
  funext fun a => Fin.ext (by match a with | ⟨0, _⟩ => rfl | ⟨1, _⟩ => rfl)

/-- The reference's result, as a function of the three arguments, is the specification. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v2 (F := Ideal) x0 x1 x2 = Cert.Spec.reluPXW x0 x1 x2 := by
  funext i
  rw [val_main_v2_apply, val_main_v1_apply, val_main_call0_v0_apply, val_main_call0_cst_apply]
  simp only [val_main_v0_apply, lidx0, ridx0, ridx1]
  rfl

end Cert.RefValue

end
-- ==== Proof.lean ====
/-
  The fused kernel `max((P · X) · W, 0)` against its reference, on the extended reals.

  The kernel walks forty blocks of 256 rows of `P` (the last block holds only 16 rows of the array; the rest of its
  staging buffer is whatever the fetch's overwrite left), keeps `X` and `W` resident, and per block stores
  `max((P_blk · X) · W, 0)`; the write-back moves only the rows inside the array. The reference is the two products
  and the maximum on the whole arrays. Both compute, entry by entry, the same sums in the same grouping
  (`Cert.Spec.reluPXW`): entry `(r, o)` reads row `r` of `P` only, so the rows past the array's end never reach a
  row that is written back, and no algebraic law — hence no finiteness of the inputs — is needed to join the two sides.

  The frames: the word-level kernel's by a run that says nothing of the result's staging buffer (`KernelFrame`); the
  idealized kernel's from the run that names the result array (`KernelIdealRun`); the reference's from its run. The
  idealization rewrote nothing, so `preserves` is `True`.
-/
import proofs.«103940_g28054726377562_cont_9to1_1452_12_alg».proof.Defs
import proofs.«103940_g28054726377562_cont_9to1_1452_12_alg».proof.Proof.Gen.Kernel
import proofs.«103940_g28054726377562_cont_9to1_1452_12_alg».proof.Proof.Gen.KernelIdeal
import proofs.«103940_g28054726377562_cont_9to1_1452_12_alg».proof.Proof.Gen.ReferenceIdeal
import proofs.«103940_g28054726377562_cont_9to1_1452_12_alg».proof.Proof.Gen.ReferenceIdeal.Run
import proofs.«103940_g28054726377562_cont_9to1_1452_12_alg».proof.Proof.Gen.ReferenceIdeal.Read
import proofs.«103940_g28054726377562_cont_9to1_1452_12_alg».proof.Proof.Gen.Pre_finite_inputs
import proofs.«103940_g28054726377562_cont_9to1_1452_12_alg».proof.Proof.KernelFrame
import proofs.«103940_g28054726377562_cont_9to1_1452_12_alg».proof.Proof.KernelIdealRun
import proofs.«103940_g28054726377562_cont_9to1_1452_12_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.FrameRun.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification of the (agreeing) arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
